-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x128 .f32) (main_arg9 : FVec F S2 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S2x128 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S2x128 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S128x2 : Shape := ⟨2, ![128, 2]⟩
abbrev S1x2 : Shape := ⟨2, ![1, 2]⟩
abbrev S100000x2 : Shape := ⟨2, ![100000, 2]⟩
abbrev S4000x2 : Shape := ⟨2, ![4000, 2]⟩

abbrev nBuf : Space → Nat
  | .hbm => 64
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x128, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S128x128, .f32⟩
  | .hbm, ⟨59, _⟩ => ⟨S128x128, .f32⟩
  | .hbm, ⟨60, _⟩ => ⟨S1x128, .f32⟩
  | .hbm, ⟨61, _⟩ => ⟨S128x2, .f32⟩
  | .hbm, ⟨62, _⟩ => ⟨S1x2, .f32⟩
  | .hbm, ⟨63, _⟩ => ⟨S100000x2, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x2, .f32⟩
  | .local _ .vmem, ⟨17, _⟩ => ⟨S1x2, .f32⟩
  | .local _ .vmem, ⟨18, _⟩ => ⟨S4000x2, .f32⟩
  | .local _ .vmem, ⟨19, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  transposes_S2x128_S128x2_1_0 : S2x128.Transposes [1, 0] S128x2
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x2.size a ≤ S100000x2.size a
  hwx1_7 : ∀ i : grid1.Coords, EltTy.bits .f32 = 32 ∨ (Rect.block (s := S100000x2) S4000x2.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S4000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x128, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S128x2, .f32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.HostStretch.lean ====
/-
  What the host operations of the idealized kernel program leave in the buffers its two kernels read.

  Before the first kernel the host computes, for every node, the mean of its in-neighbours' feature rows: the
  source rows gathered along the edges (a negative source index wrapped once), scatter-added at the edges'
  destinations into zeros, and divided by the number of edges arriving there, at least one.  The count is the
  scatter-add of ones at the destinations, as a vector over the nodes recast as a column.  It also transposes the
  two weight matrices and recasts the bias as a row.  Between the kernels it does the same to the first layer's
  result, with the same count.  `meanOf` names this one function of the edge list and of a feature array.
-/
import proofs.«107102_j34402688041309_1_alg».proof.Proof.Gen.KernelIdeal.Frame
import Idealize.ShloMosaic.PureOps.Ideal
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- Row 1 of the edge list: the edges' destination nodes. -/
def dstRow (x1 : IVec S2x1600000 32) : IVec S1600000 32 :=
  shapeCast S1600000 (extractStridedSlice S1x1600000 ![1, 0] x1 slices_S2x1600000_S1x1600000_1_0) shapeCasts_S1x1600000_S1600000

/-- The edges' destination nodes as scatter indices, one index vector of length one per edge. -/
def dstIdx (x1 : IVec S2x1600000 32) : IVec S1600000x1 32 :=
  broadcastInDim S1600000x1 ![0] bcast_S1600000_S1600000x1_0 (dstRow x1)

/-- Row 0 of the edge list: the edges' source nodes. -/
def srcRow (x1 : IVec S2x1600000 32) : IVec S1600000 32 :=
  shapeCast S1600000 (extractStridedSlice S1x1600000 ![0, 0] x1 slices_S2x1600000_S1x1600000_0_0) shapeCasts_S1x1600000_S1600000

/-- The edges' source nodes as gather indices: a negative index has the node count added once. -/
def srcIdx (x1 : IVec S2x1600000 32) : IVec S1600000x1 32 :=
  broadcastInDim S1600000x1 ![0] bcast_S1600000_S1600000x1_0
    (select (cmpi .slt (srcRow x1) (broadcastInDim S1600000 ![] bcast_S_S1600000 (constantI S_ 32 0#32)))
      (addi (srcRow x1) (broadcastInDim S1600000 ![] bcast_S_S1600000 (constantI S_ 32 100000#32))) (srcRow x1))

/-- The sum, at every node, of the rows of `h` at the sources of the edges arriving there. -/
def sumOf (x1 : IVec S2x1600000 32) (h : S100000x128.Idx → EReal) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32)) (dstIdx x1)
    (Host.gather gather_S100000x128_S1600000x1_S1600000x128_1_0_n_n_0_1_1128 h (srcIdx x1))

/-- The number of edges arriving at every node, at least one, as a column. -/
def countCol (x1 : IVec S2x1600000 32) : S100000x1.Idx → EReal :=
  shapeCast S100000x1
    (maximumf (F := Ideal) (φ := .f32)
      (Host.scatterAdd (F := Ideal) (φ := .f32) scatter_S100000_S1600000x1_S1600000_n_0_0_1
        (broadcastInDim S100000 ![] bcast_S_S100000 (constant (F := Ideal) S_ .f32 0x00000000#32)) (dstIdx x1)
        (broadcastInDim S1600000 ![] bcast_S_S1600000 (constant (F := Ideal) S_ .f32 0x3F800000#32)))
      (broadcastInDim S100000 ![] bcast_S_S100000 (constant (F := Ideal) S_ .f32 0x3F800000#32)))
    shapeCasts_S100000_S100000x1

/-- The mean of the in-neighbours' rows of `h`, the count given as a column. -/
def meanWith (x1 : IVec S2x1600000 32) (cnt : S100000x1.Idx → EReal) (h : S100000x128.Idx → EReal) : S100000x128.Idx → EReal :=
  Host.divf (F := Ideal) (φ := .f32) (sumOf x1 h) (broadcastInDim S100000x128 ![0, 1] bcast_S100000x1_S100000x128_0_1 cnt)

variable (m : (ℓ : Loc nD τ sig) → Buf (Elt Ideal) ℓ) (ρ : Dev nD → PrngReg) (c : Dev nD)

/-! ## The first kernel's operands -/

set_option maxHeartbeats 4000000 in
theorem entry0_mean : V1 m ρ c main_v22 = meanWith (m ((c : Thread nD τ).loc main_arg1)) (countCol (m ((c : Thread nD τ).loc main_arg1))) (m ((c : Thread nD τ).loc main_arg0)) := by
  show StableHlo.after hostOps0 (W0 m ρ c) (Proc.devRef .tc main_v22) = _
  after_results_simp <;> rfl

theorem entry0_self : V1 m ρ c main_arg0 = m ((c : Thread nD τ).loc main_arg0) := by
  show StableHlo.after hostOps0 (W0 m ρ c) (Proc.devRef .tc main_arg0) = _
  after_results_simp <;> rfl

theorem entry0_wl : V1 m ρ c main_v23 = transpose S128x128 [1, 0] (m ((c : Thread nD τ).loc main_arg2)) transposes_S128x128_S128x128_1_0 := by
  show StableHlo.after hostOps0 (W0 m ρ c) (Proc.devRef .tc main_v23) = _
  after_results_simp <;> rfl

theorem entry0_wr : V1 m ρ c main_v24 = transpose S128x128 [1, 0] (m ((c : Thread nD τ).loc main_arg4)) transposes_S128x128_S128x128_1_0 := by
  show StableHlo.after hostOps0 (W0 m ρ c) (Proc.devRef .tc main_v24) = _
  after_results_simp <;> rfl

theorem entry0_bias : V1 m ρ c main_v25 = shapeCast S1x128 (m ((c : Thread nD τ).loc main_arg3)) shapeCasts_S128_S1x128 := by
  show StableHlo.after hostOps0 (W0 m ρ c) (Proc.devRef .tc main_v25) = _
  after_results_simp <;> rfl

/-! ## Between the kernels: what the first stretch and the first kernel leave -/

theorem mid_src : W2 m ρ c (Proc.devRef .tc main_v1) = srcRow (m ((c : Thread nD τ).loc main_arg1)) :=
  (W2_of_ne m ρ c main_v1 (by decide)).trans (by
    show StableHlo.after hostOps0 (W0 m ρ c) (Proc.devRef .tc main_v1) = _
    after_results_simp <;> rfl)

theorem mid_dst : W2 m ρ c (Proc.devRef .tc main_v3) = dstRow (m ((c : Thread nD τ).loc main_arg1)) :=
  (W2_of_ne m ρ c main_v3 (by decide)).trans (by
    show StableHlo.after hostOps0 (W0 m ρ c) (Proc.devRef .tc main_v3) = _
    after_results_simp <;> rfl)

set_option maxHeartbeats 4000000 in
theorem mid_cnt : W2 m ρ c (Proc.devRef .tc main_v10) = countCol (m ((c : Thread nD τ).loc main_arg1)) :=
  (W2_of_ne m ρ c main_v10 (by decide)).trans (by
    show StableHlo.after hostOps0 (W0 m ρ c) (Proc.devRef .tc main_v10) = _
    after_results_simp <;> rfl)

theorem mid_arg5 : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

theorem mid_arg6 : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

theorem mid_arg7 : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

theorem mid_arg8 : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results_simp <;> rfl)

theorem mid_arg9 : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)

/-- The first kernel's result array, as the second stretch finds it. -/
theorem mid_hidden : W2 m ρ c (Proc.devRef .tc main_v26) = (dat0 (V1 m ρ) c).arrAt 5 cfg0.N := W2_arr m ρ c 5

/-! ## The second kernel's operands -/

set_option maxHeartbeats 4000000 in
theorem entry1_mean : V3 m ρ c main_v38 = meanWith (m ((c : Thread nD τ).loc main_arg1)) (countCol (m ((c : Thread nD τ).loc main_arg1))) (W2 m ρ c (Proc.devRef .tc main_v26)) := by
  show StableHlo.after hostOps1 (W2 m ρ c) (Proc.devRef .tc main_v38) = _
  after_results_simp
  rw [mid_src, mid_dst, mid_cnt]
  rfl

theorem entry1_self : V3 m ρ c main_v26 = W2 m ρ c (Proc.devRef .tc main_v26) := by
  show StableHlo.after hostOps1 (W2 m ρ c) (Proc.devRef .tc main_v26) = _
  after_results_simp <;> rfl

theorem entry1_wl : V3 m ρ c main_v39 = transpose S128x128 [1, 0] (m ((c : Thread nD τ).loc main_arg5)) transposes_S128x128_S128x128_1_0 := by
  show StableHlo.after hostOps1 (W2 m ρ c) (Proc.devRef .tc main_v39) = _
  after_results_simp
  rw [mid_arg5]

theorem entry1_wr : V3 m ρ c main_v40 = transpose S128x128 [1, 0] (m ((c : Thread nD τ).loc main_arg7)) transposes_S128x128_S128x128_1_0 := by
  show StableHlo.after hostOps1 (W2 m ρ c) (Proc.devRef .tc main_v40) = _
  after_results_simp
  rw [mid_arg7]

theorem entry1_bias : V3 m ρ c main_v41 = shapeCast S1x128 (m ((c : Thread nD τ).loc main_arg6)) shapeCasts_S128_S1x128 := by
  show StableHlo.after hostOps1 (W2 m ρ c) (Proc.devRef .tc main_v41) = _
  after_results_simp
  rw [mid_arg6]
  rfl

theorem entry1_head : V3 m ρ c main_v42 = transpose S128x2 [1, 0] (m ((c : Thread nD τ).loc main_arg8)) transposes_S2x128_S128x2_1_0 := by
  show StableHlo.after hostOps1 (W2 m ρ c) (Proc.devRef .tc main_v42) = _
  after_results_simp
  rw [mid_arg8]

theorem entry1_headBias : V3 m ρ c main_v43 = shapeCast S1x2 (m ((c : Thread nD τ).loc main_arg9)) shapeCasts_S2_S1x2 := by
  show StableHlo.after hostOps1 (W2 m ρ c) (Proc.devRef .tc main_v43) = _
  after_results_simp
  rw [mid_arg9]
  rfl

end Cert.KernelIdeal.HostValue

end
-- ==== Proof.Spec.lean ====
/-
  The mathematics of the two programs, entry by entry, over the extended reals.

  A GraphSAGE layer takes, for every node n, the mean A(n, ·) of its in-neighbours' features and its own features
  X(n, ·), and returns  max(A(n,·)·B + X(n,·)·C + b, 0):  two 128-term inner products against the columns of the two
  (already transposed) weight matrices, a bias entry, and the positive part.  The head multiplies the second layer's
  row by a 128 x 2 matrix and adds a bias.  Both programs compute exactly these numbers; they differ in the order
  of the three summands of a layer, which addition on the extended reals does not see.
-/
import Idealize.ShloMosaic.Lib.ValueIdx
import Idealize.ShloMosaic.PureOps.Ideal

noncomputable section

open scoped BigOperators

namespace Cert.Sage

open Idealize.ShloMosaic Idealize.ShloMosaic.ValueIdx

/-- One hidden layer at node `n`, channel `j`: the mean row against column `j` of `B`, the node's own row against
    column `j` of `C`, the bias entry, and the positive part. -/
def hiddenAt (A X : (⟨2, ![100000, 128]⟩ : Shape).Idx → EReal) (B C : (⟨2, ![128, 128]⟩ : Shape).Idx → EReal)
    (b : Fin 128 → EReal) (n : Fin 100000) (j : Fin 128) : EReal :=
  max ((∑ k : Fin 128, A (ix2 n k) * B (ix2 k j)) + (∑ k : Fin 128, X (ix2 n k) * C (ix2 k j)) + b j) 0

/-- The same layer with the bias added before the second inner product. -/
def hiddenAt' (A X : (⟨2, ![100000, 128]⟩ : Shape).Idx → EReal) (B C : (⟨2, ![128, 128]⟩ : Shape).Idx → EReal)
    (b : Fin 128 → EReal) (n : Fin 100000) (j : Fin 128) : EReal :=
  max (((∑ k : Fin 128, A (ix2 n k) * B (ix2 k j)) + b j) + (∑ k : Fin 128, X (ix2 n k) * C (ix2 k j))) 0

/-- The order of the three summands does not matter: addition on the extended reals is commutative and associative. -/
theorem hiddenAt'_eq (A X : (⟨2, ![100000, 128]⟩ : Shape).Idx → EReal) (B C : (⟨2, ![128, 128]⟩ : Shape).Idx → EReal)
    (b : Fin 128 → EReal) (n : Fin 100000) (j : Fin 128) : hiddenAt' A X B C b n j = hiddenAt A X B C b n j := by
  unfold hiddenAt' hiddenAt
  rw [add_right_comm]

/-- The head at one node, output `o`: the node's hidden row `h` against column `o` of the head matrix, plus its bias. -/
def headAt (h : Fin 128 → EReal) (Wf : (⟨2, ![128, 2]⟩ : Shape).Idx → EReal) (bf : Fin 2 → EReal) (o : Fin 2) : EReal :=
  (∑ k : Fin 128, h k * Wf (ix2 k o)) + bf o

end Cert.Sage

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.Region0Value.lean ====
/-
  The first layer's kernel, read entry by entry over the extended reals.

  The kernel walks the 100000 node rows in 25 blocks of 4000 rows. At a block it holds 4000 rows of the neighbour means
  and of the node features, the two 128 x 128 weight matrices and the bias row whole, and leaves in the output block
  max(A·B + X·C + b, 0): two matrix products into zero accumulators (the change of the operands' format is the identity
  here), their sum, the bias row laid along every row, and the positive part. Row p of block t is row 4000 t + p of the
  array, every column is present, and the 25 blocks cover the rows; so the output array ends holding, at node n and
  channel j, the hidden layer of the specification at the arrays the kernel found on entry.
-/
import proofs.«107102_j34402688041309_1_alg».proof.Proof.Gen.KernelIdeal.Frame
import proofs.«107102_j34402688041309_1_alg».proof.Proof.Spec
import proofs.«107102_j34402688041309_1_alg».proof.Proof.LibSoftplus
import proofs.«107102_j34402688041309_1_alg».proof.Proof.LibDenseLayer
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Region0Value
open Idealize.ShloMosaic Idealize.ShloMosaic.TcCoe Idealize.SL.Sem Idealize.ShloMosaic.ValueIdx Cert.KernelIdeal Cert.KernelIdeal.Gen
open Idealize.ShloMosaic.Pipeline (Dat)

/-- The block's arithmetic at row `p`, channel `j`: the two inner products over the 128 input channels, the bias entry,
    and the positive part. -/
theorem layer_block_apply (x0 x1 : FVec Ideal S4000x128 .f32) (x2 x3 : FVec Ideal S128x128 .f32) (x4 : FVec Ideal S1x128 .f32)
    (p : Fin 4000) (j : Fin 128) :
    k0_pay1 (F := Ideal) x0 x1 x2 x3 x4 (ix2 p j)
      = max ((∑ k : Fin 128, x0 (ix2 p k) * x2 (ix2 k j)) + (∑ k : Fin 128, x1 (ix2 p k) * x3 (ix2 k j))
          + x4 (ix2 (0 : Fin 1) j)) 0 := by
  unfold k0_pay1
  refine (Cert.Lib.DenseLayer.relu_apply _ _).trans ?_
  refine congrArg (fun z => max z 0) ?_
  rw [addf_apply, addf_apply, broadcastTo_1b_ab_apply]
  simp only [shapeCast_self]
  refine congrArg₂ (· + ·) (congrArg₂ (· + ·) ?_ ?_) rfl
  · exact Cert.Lib.Softplus.matmul0_plain_apply _ rfl none _ _ p j
  · exact Cert.Lib.Softplus.matmul0_plain_apply _ rfl none _ _ p j

section Region
variable (V : (c : Dev nD) → (b : Ref sig .tc) → Buf (Elt Ideal) ((c : Thread nD τ).loc b))

theorem zero_offsets : (![0, 0] : Fin 2 → Nat) = fun _ => 0 := funext fun a => by fin_cases a <;> rfl

/-- The output array as ONE function of the arrays the kernel finds on entry: the hidden layer at every node and channel. -/
def hidden (c : Dev nD) : S100000x128.Idx → Elt Ideal .f32 := fun i =>
  Cert.Sage.hiddenAt (V c main_v22) (V c main_arg0) (V c main_v23) (V c main_v24)
    (fun q => V c main_v25 (ix2 (0 : Fin 1) q)) ⟨(i 0).val, (i 0).isLt⟩ ⟨(i 1).val, (i 1).isLt⟩

theorem hidden_apply (c : Dev nD) (n : Fin 100000) (j : Fin 128) :
    hidden V c (ix2 n j) = Cert.Sage.hiddenAt (V c main_v22) (V c main_arg0) (V c main_v23) (V c main_v24)
      (fun q => V c main_v25 (ix2 (0 : Fin 1) q)) n j := rfl

/-- The block index of each window at each of the 25 points: the two row-blocked inputs and the output sit at block
    (t, 0); the weights and the bias row at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 25 := lt_of_lt_of_eq t.isLt N_0

/-- Row `p` of the block of neighbour means at point `t` is row `4000 t + p` of the array. -/
theorem means_block_apply (c : Dev nD) (t : Fin cfg0.N) (p : Fin 4000) (k : Fin 128) (n : Fin 100000)
    (hn : n.val = 4000 * t.val + p.val) :
    (iblk0 (F := Ideal) V c 0 t : FVec Ideal S4000x128 .f32) (ix2 p k) = (V c main_v22 : S100000x128.Idx → EReal) (ix2 n k) := by
  obtain ⟨e0, e1, -⟩ := block_indices t
  unfold iblk0
  rw [View.read_apply]
  show V c main_v22 _ = V c main_v22 _
  congr 1
  funext a
  apply Fin.ext
  match a with
  | ⟨0, _⟩ => show win0_0.index t (0 : Fin 2) * 4000 + 1 * p.val = n.val; omega
  | ⟨1, _⟩ => show win0_0.index t (1 : Fin 2) * 128 + 1 * k.val = k.val; omega

/-- Row `p` of the block of node features at point `t` is row `4000 t + p` of the array. -/
theorem features_block_apply (c : Dev nD) (t : Fin cfg0.N) (p : Fin 4000) (k : Fin 128) (n : Fin 100000)
    (hn : n.val = 4000 * t.val + p.val) :
    (iblk0 (F := Ideal) V c 1 t : FVec Ideal S4000x128 .f32) (ix2 p k) = (V c main_arg0 : S100000x128.Idx → EReal) (ix2 n k) := by
  obtain ⟨-, -, e0, e1, -⟩ := block_indices t
  unfold iblk0
  rw [View.read_apply]
  show V c main_arg0 _ = V c main_arg0 _
  congr 1
  funext a
  apply Fin.ext
  match a with
  | ⟨0, _⟩ => show win0_1.index t (0 : Fin 2) * 4000 + 1 * p.val = n.val; omega
  | ⟨1, _⟩ => show win0_1.index t (1 : Fin 2) * 128 + 1 * k.val = k.val; omega

/-- The first weight matrix is held whole at every point. -/
theorem weights_B_block_apply (c : Dev nD) (t : Fin cfg0.N) (k j : Fin 128) :
    (iblk0 (F := Ideal) V c 2 t : FVec Ideal S128x128 .f32) (ix2 k j) = (V c main_v23 : S128x128.Idx → EReal) (ix2 k j) := by
  obtain ⟨-, -, -, -, e0, e1, -⟩ := block_indices t
  unfold iblk0
  rw [View.read_apply]
  show V c main_v23 _ = V c main_v23 _
  congr 1
  funext a
  apply Fin.ext
  match a with
  | ⟨0, _⟩ => show win0_2.index t (0 : Fin 2) * 128 + 1 * k.val = k.val; omega
  | ⟨1, _⟩ => show win0_2.index t (1 : Fin 2) * 128 + 1 * j.val = j.val; omega

/-- The second weight matrix is held whole at every point. -/
theorem weights_C_block_apply (c : Dev nD) (t : Fin cfg0.N) (k j : Fin 128) :
    (iblk0 (F := Ideal) V c 3 t : FVec Ideal S128x128 .f32) (ix2 k j) = (V c main_v24 : S128x128.Idx → EReal) (ix2 k j) := by
  obtain ⟨-, -, -, -, -, -, e0, e1, -⟩ := block_indices t
  unfold iblk0
  rw [View.read_apply]
  show V c main_v24 _ = V c main_v24 _
  congr 1
  funext a
  apply Fin.ext
  match a with
  | ⟨0, _⟩ => show win0_3.index t (0 : Fin 2) * 128 + 1 * k.val = k.val; omega
  | ⟨1, _⟩ => show win0_3.index t (1 : Fin 2) * 128 + 1 * j.val = j.val; omega

/-- The bias row is held whole at every point. -/
theorem bias_block_apply (c : Dev nD) (t : Fin cfg0.N) (j : Fin 128) :
    (iblk0 (F := Ideal) V c 4 t : FVec Ideal S1x128 .f32) (ix2 (0 : Fin 1) j) = (V c main_v25 : S1x128.Idx → EReal) (ix2 (0 : Fin 1) j) := by
  obtain ⟨-, -, -, -, -, -, -, -, e0, e1, -⟩ := block_indices t
  unfold iblk0
  rw [View.read_apply]
  show V c main_v25 _ = V c main_v25 _
  congr 1
  funext a
  apply Fin.ext
  match a with
  | ⟨0, _⟩ => show win0_4.index t (0 : Fin 2) * 1 + 1 * (0 : Fin 1).val = (0 : Fin 1).val; omega
  | ⟨1, _⟩ => show win0_4.index t (1 : Fin 2) * 128 + 1 * j.val = j.val; omega

/-- Row `p`, channel `j` of the output block at point `t` is row `4000 t + p`, channel `j` of the output array. -/
theorem output_block_emb (t : Fin cfg0.N) (p : Fin 4000) (j : Fin 128) (n : Fin 100000) (hn : n.val = 4000 * t.val + p.val) :
    (((cfg0.win 5).blk t).view.emb (ix2 p j) : S100000x128.Idx) = ix2 n j := by
  obtain ⟨-, -, -, -, -, -, -, -, -, -, e0, e1⟩ := block_indices t
  funext a
  apply Fin.ext
  match a with
  | ⟨0, _⟩ => show win0_5.index t (0 : Fin 2) * 4000 + 1 * p.val = n.val; omega
  | ⟨1, _⟩ => show win0_5.index t (1 : Fin 2) * 128 + 1 * j.val = j.val; omega

/-- WHAT POINT `t` WRITES BACK is block `t` of the hidden layer of the arrays found on entry. -/
theorem flushed_eq (c : Dev nD) (t : Fin cfg0.N) :
    (dat0 (F := Ideal) V c).flushed 5 t = ((cfg0.win 5).blk t).view.read (Elt Ideal) (hidden V c) := by
  show (cfg0.win 5).cut (grid0.coords t) ((dat0 (F := Ideal) V c).after 5 t) = _
  rw [after0_5]
  unfold out0_5
  rw [View.canon_unit_zero zero_offsets]
  simp only [View.ld_unit_zero (S := S4000x128) zero_offsets, View.ld_unit_zero (S := S128x128) zero_offsets,
    View.ld_unit_zero (S := S1x128) zero_offsets]
  funext y
  obtain ⟨p, j, rfl⟩ : ∃ (p : Fin 4000) (j : Fin 128), y = ix2 p j := ⟨y 0, y 1, eq_ix2 y⟩
  have hp : p.val < 4000 := p.isLt
  have ht : t.val < 25 := point_lt t
  rw [View.read_apply, output_block_emb t p j ⟨4000 * t.val + p.val, by omega⟩ rfl, hidden_apply]
  refine (layer_block_apply _ _ _ _ _ p j).trans ?_
  unfold Cert.Sage.hiddenAt
  refine congrArg (fun z => max z 0) ?_
  refine congrArg₂ (· + ·) (congrArg₂ (· + ·) ?_ ?_) (bias_block_apply V c t j)
  · exact Finset.sum_congr rfl fun k _ => congrArg₂ (· * ·)
      (means_block_apply V c t p k ⟨4000 * t.val + p.val, by omega⟩ rfl) (weights_B_block_apply V c t k j)
  · exact Finset.sum_congr rfl fun k _ => congrArg₂ (· * ·)
      (features_block_apply V c t p k ⟨4000 * t.val + p.val, by omega⟩ rfl) (weights_C_block_apply V c t k j)

/-- A row and channel of the output array are in point `t`'s block iff each coordinate is in the block's range on its axis. -/
theorem mem_output_block (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v26).slice (win0_5.rect t)).set ↔ _
  rw [View.set_slice_whole, Rect.mem_set_unit]
  exact Iff.rfl

/-- Every row is in the block of the point its number divided by 4000 names, and every channel is in every block. -/
theorem output_covered (i : S100000x128.Idx) :
    ∃ t : Fin cfg0.N, (cfg0.win 5).flush t = true ∧ i ∈ ((cfg0.win 5).blk t).view.set := by
  have hN : grid0.N = 25 := N_0
  have hi0 : (i 0).val < 100000 := (i 0).isLt
  have hi1 : (i 1).val < 128 := (i 1).isLt
  let t : Fin cfg0.N := ⟨(i 0).val / 4000, by show (i 0).val / 4000 < grid0.N; omega⟩
  obtain ⟨-, -, -, -, -, -, -, -, -, -, e0, e1⟩ := block_indices t
  have et : t.val = (i 0).val / 4000 := rfl
  refine ⟨t, flush0_5 t, ?_⟩
  rw [mem_output_block]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE OUTPUT ARRAY after the 25 points is the hidden layer of the arrays found on entry. -/
theorem output_eq_hidden (c : Dev nD) : (dat0 (F := Ideal) V c).arrAt 5 cfg0.N = hidden V c :=
  (dat0 (F := Ideal) V c).arrAt_eq_of_cover 5 (hidden V c) (fun t _ => flushed_eq V c t) output_covered

end Region

/-- The first layer's kernel leaves, at node `n` and channel `j` of its output array, the hidden layer of the
    specification at the neighbour means, the node features, the two weight matrices and the bias row it found on entry. -/
theorem region0_at (V : (c : Dev nD) → (b : Ref sig .tc) → Buf (Elt Ideal) ((c : Thread nD τ).loc b)) (c : Dev nD)
    (n : Fin 100000) (j : Fin 128) :
    (dat0 (F := Ideal) V c).arrAt 5 cfg0.N (ix2 n j)
      = Cert.Sage.hiddenAt (V c main_v22) (V c main_arg0) (V c main_v23) (V c main_v24)
          (fun q => V c main_v25 (ix2 (0 : Fin 1) q)) n j :=
  (congrFun (output_eq_hidden V c) (ix2 n j)).trans (hidden_apply V c n j)

end Cert.KernelIdeal.Region0Value

end
-- ==== Proof.Region1Value.lean ====
/-
  The value of the second kernel's result array, entry by entry, over the extended reals.

  The grid has 25 points; point t works on rows 4000 t … 4000 t + 3999. At a row it takes the mean-neighbour row and
  the node's own row against the two 128 x 128 weight matrices, adds the bias row, takes the positive part, and
  multiplies the resulting 128 numbers by the 128 x 2 head matrix, adding the head's bias: at Ideal every format
  change is the identity, so each matrix product is the plain sum over the contracted coordinate. The blocks of the
  two row arrays move with the output's block and the weights and biases are staged whole, so what point t writes back
  is block t of one function of the arrays the region finds; the 25 blocks fill the 100000 rows, and the result array
  ends holding that function.
-/
import proofs.«107102_j34402688041309_1_alg».proof.Proof.Gen.KernelIdeal.Frame
import proofs.«107102_j34402688041309_1_alg».proof.Proof.Spec
import proofs.«107102_j34402688041309_1_alg».proof.Proof.LibSoftplus
import proofs.«107102_j34402688041309_1_alg».proof.Proof.LibDenseLayer
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region1Value

open Idealize.ShloMosaic Idealize.ShloMosaic.TcCoe Idealize.SL.Sem Idealize.ShloMosaic.ValueIdx Cert.KernelIdeal Cert.KernelIdeal.Gen

/-- The head kernel's arithmetic at one entry of a block. -/
theorem head_payload_apply (x0 x1 : FVec Ideal S4000x128 .f32) (x2 x3 : FVec Ideal S128x128 .f32)
    (x4 : FVec Ideal S1x128 .f32) (x5 : FVec Ideal S128x2 .f32) (x6 : FVec Ideal S1x2 .f32) (p : Fin 4000) (o : Fin 2) :
    k1_pay1 (F := Ideal) x0 x1 x2 x3 x4 x5 x6 (ix2 p o)
      = (∑ k : Fin 128, max ((∑ d : Fin 128, x0 (ix2 p d) * x2 (ix2 d k)) + (∑ d : Fin 128, x1 (ix2 p d) * x3 (ix2 d k))
            + x4 (ix2 (0 : Fin 1) k)) 0 * x5 (ix2 k o)) + x6 (ix2 (0 : Fin 1) o) := by
  unfold k1_pay1
  simp only [shapeCast_self]
  rw [addf_apply, broadcastTo_1b_ab_apply]
  refine congrArg (· + x6 (ix2 (0 : Fin 1) o)) ?_
  refine (Cert.Lib.Softplus.matmul0_plain_apply _ rfl none _ _ p o).trans ?_
  refine Finset.sum_congr rfl fun k _ => ?_
  rw [truncf_apply, truncf_apply]
  refine congrArg (· * x5 (ix2 k o)) ?_
  refine (Cert.Lib.DenseLayer.relu_apply _ _).trans ?_
  refine congrArg (max · 0) ?_
  rw [addf_apply, addf_apply, broadcastTo_1b_ab_apply]
  rw [Cert.Lib.Softplus.matmul0_plain_apply dot_S4000x128_S128x128_S4000x128_1_0_0_1_n_n rfl none (truncf .bf16 x0 bitsLt_bf16_f32) (truncf .bf16 x2 bitsLt_bf16_f32) p k,
    Cert.Lib.Softplus.matmul0_plain_apply dot_S4000x128_S128x128_S4000x128_1_0_0_1_n_n rfl none (truncf .bf16 x1 bitsLt_bf16_f32) (truncf .bf16 x3 bitsLt_bf16_f32) p k]
  rfl

section
variable (V : (c : Dev nD) → (b : Ref sig .tc) → Buf (Elt Ideal) ((c : Thread nD τ).loc b))

/-- The head of the second layer as one function of the arrays the region finds: at node n, output o. -/
def headOf (c : Dev nD) : S100000x2.Idx → EReal := fun i =>
  Cert.Sage.headAt (fun k => Cert.Sage.hiddenAt (V c main_v38) (V c main_v26) (V c main_v39) (V c main_v40)
      (fun q => V c main_v41 (ix2 (0 : Fin 1) q)) ⟨(i 0).val, (i 0).isLt⟩ k) (V c main_v42)
    (fun q => V c main_v43 (ix2 (0 : Fin 1) q)) ⟨(i 1).val, (i 1).isLt⟩

theorem headOf_ix2 (c : Dev nD) (n : Fin 100000) (o : Fin 2) :
    headOf V c (ix2 n o)
      = Cert.Sage.headAt (fun k => Cert.Sage.hiddenAt (V c main_v38) (V c main_v26) (V c main_v39) (V c main_v40)
          (fun q => V c main_v41 (ix2 (0 : Fin 1) q)) n k) (V c main_v42) (fun q => V c main_v43 (ix2 (0 : Fin 1) q)) o := rfl

theorem zero_offsets : (![0, 0] : Fin 2 → Nat) = fun _ => 0 := funext fun a => by fin_cases a <;> rfl

/-- The block index of every window at grid point t: the row windows sit at block (t, 0), the weight and bias windows at (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem row_lt (t : Fin cfg1.N) (p : Fin 4000) : 4000 * t.val + p.val < 100000 := by
  have hN : grid1.N = 25 := Gen.N_1
  have ht : t.val < grid1.N := t.isLt
  have hp := p.isLt
  omega

/-- The mean-row window's block at point t is rows 4000 t … 4000 t + 3999 of its array. -/
theorem mean_block_apply (c : Dev nD) (t : Fin cfg1.N) (p : Fin 4000) (d : Fin 128) :
    (iblk1 (F := Ideal) V c 0 t : FVec Ideal S4000x128 .f32) (ix2 p d)
      = (V c main_v38 : S100000x128.Idx → EReal) (ix2 (⟨4000 * t.val + p.val, row_lt t p⟩ : Fin 100000) d) := by
  obtain ⟨e0, e1, -⟩ := block_index t
  unfold iblk1
  rw [View.read_apply]
  show V c main_v38 (((cfg1.win 0).blk t).view.emb (ix2 p d)) = V c main_v38 _
  refine congrArg _ (funext fun a => Fin.ext ?_)
  match a with
  | ⟨0, _⟩ => show win1_0.index t (0 : Fin 2) * 4000 + 1 * p.val = 4000 * t.val + p.val; omega
  | ⟨1, _⟩ => show win1_0.index t (1 : Fin 2) * 128 + 1 * d.val = d.val; omega

/-- The node-row window's block at point t is the same rows of its array. -/
theorem self_block_apply (c : Dev nD) (t : Fin cfg1.N) (p : Fin 4000) (d : Fin 128) :
    (iblk1 (F := Ideal) V c 1 t : FVec Ideal S4000x128 .f32) (ix2 p d)
      = (V c main_v26 : S100000x128.Idx → EReal) (ix2 (⟨4000 * t.val + p.val, row_lt t p⟩ : Fin 100000) d) := by
  obtain ⟨-, -, e0, e1, -⟩ := block_index t
  unfold iblk1
  rw [View.read_apply]
  show V c main_v26 (((cfg1.win 1).blk t).view.emb (ix2 p d)) = V c main_v26 _
  refine congrArg _ (funext fun a => Fin.ext ?_)
  match a with
  | ⟨0, _⟩ => show win1_1.index t (0 : Fin 2) * 4000 + 1 * p.val = 4000 * t.val + p.val; omega
  | ⟨1, _⟩ => show win1_1.index t (1 : Fin 2) * 128 + 1 * d.val = d.val; omega

/-- The first weight matrix is staged whole at every point. -/
theorem weightB_block_apply (c : Dev nD) (t : Fin cfg1.N) (d k : Fin 128) :
    (iblk1 (F := Ideal) V c 2 t : FVec Ideal S128x128 .f32) (ix2 d k) = (V c main_v39 : S128x128.Idx → EReal) (ix2 d k) := by
  obtain ⟨-, -, -, -, e0, e1, -⟩ := block_index t
  unfold iblk1
  rw [View.read_apply]
  show V c main_v39 (((cfg1.win 2).blk t).view.emb (ix2 d k)) = V c main_v39 _
  refine congrArg _ (funext fun a => Fin.ext ?_)
  match a with
  | ⟨0, _⟩ => show win1_2.index t (0 : Fin 2) * 128 + 1 * d.val = d.val; omega
  | ⟨1, _⟩ => show win1_2.index t (1 : Fin 2) * 128 + 1 * k.val = k.val; omega

/-- The second weight matrix is staged whole at every point. -/
theorem weightC_block_apply (c : Dev nD) (t : Fin cfg1.N) (d k : Fin 128) :
    (iblk1 (F := Ideal) V c 3 t : FVec Ideal S128x128 .f32) (ix2 d k) = (V c main_v40 : S128x128.Idx → EReal) (ix2 d k) := by
  obtain ⟨-, -, -, -, -, -, e0, e1, -⟩ := block_index t
  unfold iblk1
  rw [View.read_apply]
  show V c main_v40 (((cfg1.win 3).blk t).view.emb (ix2 d k)) = V c main_v40 _
  refine congrArg _ (funext fun a => Fin.ext ?_)
  match a with
  | ⟨0, _⟩ => show win1_3.index t (0 : Fin 2) * 128 + 1 * d.val = d.val; omega
  | ⟨1, _⟩ => show win1_3.index t (1 : Fin 2) * 128 + 1 * k.val = k.val; omega

/-- The layer's bias row is staged whole at every point. -/
theorem bias_block_apply (c : Dev nD) (t : Fin cfg1.N) (k : Fin 128) :
    (iblk1 (F := Ideal) V c 4 t : FVec Ideal S1x128 .f32) (ix2 (0 : Fin 1) k) = (V c main_v41 : S1x128.Idx → EReal) (ix2 (0 : Fin 1) k) := by
  obtain ⟨-, -, -, -, -, -, -, -, e0, e1, -⟩ := block_index t
  unfold iblk1
  rw [View.read_apply]
  show V c main_v41 (((cfg1.win 4).blk t).view.emb (ix2 (0 : Fin 1) k)) = V c main_v41 _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

/-- The head matrix is staged whole at every point. -/
theorem headW_block_apply (c : Dev nD) (t : Fin cfg1.N) (k : Fin 128) (o : Fin 2) :
    (iblk1 (F := Ideal) V c 5 t : FVec Ideal S128x2 .f32) (ix2 k o) = (V c main_v42 : S128x2.Idx → EReal) (ix2 k o) := by
  obtain ⟨-, -, -, -, -, -, -, -, -, -, e0, e1, -⟩ := block_index t
  unfold iblk1
  rw [View.read_apply]
  show V c main_v42 (((cfg1.win 5).blk t).view.emb (ix2 k o)) = V c main_v42 _
  refine congrArg _ (funext fun a => Fin.ext ?_)
  match a with
  | ⟨0, _⟩ => show win1_5.index t (0 : Fin 2) * 128 + 1 * k.val = k.val; omega
  | ⟨1, _⟩ => show win1_5.index t (1 : Fin 2) * 2 + 1 * o.val = o.val; omega

/-- The head's bias row is staged whole at every point. -/
theorem headB_block_apply (c : Dev nD) (t : Fin cfg1.N) (o : Fin 2) :
    (iblk1 (F := Ideal) V c 6 t : FVec Ideal S1x2 .f32) (ix2 (0 : Fin 1) o) = (V c main_v43 : S1x2.Idx → EReal) (ix2 (0 : Fin 1) o) := by
  obtain ⟨-, -, -, -, -, -, -, -, -, -, -, -, e0, e1, -⟩ := block_index t
  unfold iblk1
  rw [View.read_apply]
  show V c main_v43 (((cfg1.win 6).blk t).view.emb (ix2 (0 : Fin 1) o)) = V c main_v43 _
  refine congrArg _ (funext fun a => Fin.ext ?_)
  match a with
  | ⟨0, _⟩ => show win1_6.index t (0 : Fin 2) * 1 + 1 * 0 = 0; omega
  | ⟨1, _⟩ => show win1_6.index t (1 : Fin 2) * 2 + 1 * o.val = o.val; omega

/-- An entry of the output block at point t sits in the result array at row 4000 t + p. -/
theorem out_block_emb (t : Fin cfg1.N) (p : Fin 4000) (o : Fin 2) :
    ((cfg1.win 7).blk t).view.emb (ix2 p o) = (ix2 (⟨4000 * t.val + p.val, row_lt t p⟩ : Fin 100000) o : S100000x2.Idx) := by
  obtain ⟨-, -, -, -, -, -, -, -, -, -, -, -, -, -, e0, e1⟩ := block_index t
  refine funext fun a => Fin.ext ?_
  match a with
  | ⟨0, _⟩ => show win1_7.index t (0 : Fin 2) * 4000 + 1 * p.val = 4000 * t.val + p.val; omega
  | ⟨1, _⟩ => show win1_7.index t (1 : Fin 2) * 2 + 1 * o.val = o.val; omega

/-- What point t writes back is block t of the head, as a function of the arrays the region finds. -/
theorem flushed_eq (c : Dev nD) (t : Fin cfg1.N) :
    (dat1 (F := Ideal) V c).flushed 7 t = ((cfg1.win 7).blk t).view.read (Elt Ideal) (headOf V c) := by
  show (cfg1.win 7).cut (grid1.coords t) ((dat1 (F := Ideal) V c).after 7 t) = _
  rw [after1_7]
  unfold out1_7
  rw [View.canon_unit_zero zero_offsets]
  simp only [View.ld_unit_zero (S := S4000x128) zero_offsets, View.ld_unit_zero (S := S128x128) zero_offsets,
    View.ld_unit_zero (S := S1x128) zero_offsets, View.ld_unit_zero (S := S128x2) zero_offsets,
    View.ld_unit_zero (S := S1x2) zero_offsets]
  funext y
  obtain ⟨p, o, rfl⟩ : ∃ (p : Fin 4000) (o : Fin 2), y = ix2 p o := ⟨y 0, y 1, eq_ix2 y⟩
  rw [View.read_apply, out_block_emb, headOf_ix2]
  refine (head_payload_apply (iblk1 (F := Ideal) V c 0 t) (iblk1 (F := Ideal) V c 1 t) (iblk1 (F := Ideal) V c 2 t)
    (iblk1 (F := Ideal) V c 3 t) (iblk1 (F := Ideal) V c 4 t) (iblk1 (F := Ideal) V c 5 t) (iblk1 (F := Ideal) V c 6 t) p o).trans ?_
  simp only [mean_block_apply, self_block_apply, weightB_block_apply, weightC_block_apply, bias_block_apply,
    headW_block_apply, headB_block_apply]
  rfl

/-- An index of the result array is in point t's block iff each coordinate is in the block's range on its axis. -/
theorem mem_out_block (t : Fin cfg1.N) (i : S100000x2.Idx) :
    i ∈ ((cfg1.win 7).blk t).view.set ↔ ∀ a : Fin 2, win1_7.index t a * S4000x2.size a ≤ (i a).val
      ∧ (i a).val < win1_7.index t a * S4000x2.size a + S4000x2.size a := by
  show i ∈ ((View.whole main_v44).slice (win1_7.rect t)).set ↔ _
  rw [View.set_slice_whole, Rect.mem_set_unit]
  exact Iff.rfl

/-- Row r of the result array is written back by point r / 4000: the 25 blocks of 4000 rows fill the 100000 rows. -/
theorem out_cover (i : S100000x2.Idx) :
    ∃ t : Fin cfg1.N, (cfg1.win 7).flush t = true ∧ i ∈ ((cfg1.win 7).blk t).view.set := by
  have hN : grid1.N = 25 := Gen.N_1
  have hi0 : (i 0).val < 100000 := (i 0).isLt
  have hi1 : (i 1).val < 2 := (i 1).isLt
  obtain ⟨t, ht⟩ : ∃ t : Fin cfg1.N, t.val = (i 0).val / 4000 := ⟨⟨(i 0).val / 4000, by show _ < grid1.N; omega⟩, rfl⟩
  obtain ⟨-, -, -, -, -, -, -, -, -, -, -, -, -, -, e0, e1⟩ := block_index t
  refine ⟨t, flush1_7 t, ?_⟩
  rw [mem_out_block]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 2 ≤ (i 1).val ∧ (i 1).val < win1_7.index t (1 : Fin 2) * 2 + 2; omega

/-- The result array after the 25 points: the head of the second layer, entry by entry. -/
theorem region1_array (c : Dev nD) : (dat1 (F := Ideal) V c).arrAt 7 cfg1.N = headOf V c :=
  (dat1 (F := Ideal) V c).arrAt_eq_of_cover 7 (headOf V c) (fun t _ => flushed_eq V c t) out_cover

end

/-- The value of the second kernel's result array at node n, output o. -/
theorem region1_at (V : (c : Dev nD) → (b : Ref sig .tc) → Buf (Elt Ideal) ((c : Thread nD τ).loc b)) (c : Dev nD)
    (n : Fin 100000) (o : Fin 2) :
    (dat1 (F := Ideal) V c).arrAt 7 cfg1.N (ix2 n o)
      = Cert.Sage.headAt (fun k => Cert.Sage.hiddenAt (V c main_v38) (V c main_v26) (V c main_v39) (V c main_v40)
          (fun q => V c main_v41 (ix2 (0 : Fin 1) q)) n k) (V c main_v42) (fun q => V c main_v43 (ix2 (0 : Fin 1) q)) o :=
  (congrFun (region1_array V c) (ix2 n o)).trans (headOf_ix2 V c n o)

end Cert.KernelIdeal.Region1Value

end
-- ==== Proof.RefValue.lean ====
/-
  The reference program read at one entry.  Each hidden layer of the reference is, at node n and channel j,
  max((A(n,·)·B(·,j) + b j) + X(n,·)·C(·,j), 0), where A is the mean array, X the layer's input, B and C the
  transposed weight matrices and b the bias; the head is the second layer's row against a column of the head matrix
  plus its bias.  The three summands are reordered by commutativity and associativity of addition on the extended reals.
-/
import proofs.«107102_j34402688041309_1_alg».proof.Proof.Gen.ReferenceIdeal.Read
import proofs.«107102_j34402688041309_1_alg».proof.Proof.Spec

noncomputable section

open scoped BigOperators

namespace Cert.ReferenceIdeal.RefValue
open Idealize.ShloMosaic Idealize.ShloMosaic.TcCoe Idealize.SL.Sem Idealize.ShloMosaic.ValueIdx Cert.ReferenceIdeal Cert.ReferenceIdeal.Read

/-! Index equations: the composed index functions of the reference at an entry given by its coordinates. -/

theorem lidx23 (n : Fin 100000) (j k : Fin 128) : lidx_main_v23 (ix2 n j) k = ix2 n k :=
  funext fun a => Fin.ext (by match a with | ⟨0, _⟩ => rfl | ⟨1, _⟩ => rfl)
theorem ridx23 (n : Fin 100000) (j k : Fin 128) : ridx_main_v23 (ix2 n j) k = ix2 k j :=
  funext fun a => Fin.ext (by match a with | ⟨0, _⟩ => rfl | ⟨1, _⟩ => rfl)
theorem lidx28 (n : Fin 100000) (j k : Fin 128) : lidx_main_v28 (ix2 n j) k = ix2 n k :=
  funext fun a => Fin.ext (by match a with | ⟨0, _⟩ => rfl | ⟨1, _⟩ => rfl)
theorem ridx28 (n : Fin 100000) (j k : Fin 128) : ridx_main_v28 (ix2 n j) k = ix2 k j :=
  funext fun a => Fin.ext (by match a with | ⟨0, _⟩ => rfl | ⟨1, _⟩ => rfl)
theorem idx25 (n : Fin 100000) (j : Fin 128) : idx_main_v25 (ix2 n j) = ix2 (0 : Fin 1) j :=
  funext fun a => Fin.ext (by match a with | ⟨0, _⟩ => rfl | ⟨1, _⟩ => rfl)
theorem idx24 (j : Fin 128) : idx_main_v24 (ix2 (0 : Fin 1) j) = ix1 j :=
  funext fun a => Fin.ext (by match a with | ⟨0, _⟩ => rfl)

theorem hidden0_at (x0 : S100000x128.Idx → EReal) (x1 : IVec S2x1600000 32) (x2 : S128x128.Idx → EReal) (x3 : S128.Idx → EReal) (x4 : S128x128.Idx → EReal)
    (n : Fin 100000) (j : Fin 128) :
    val_main_v30 (F := Ideal) x0 x1 x2 x3 x4 (ix2 n j)
      = Cert.Sage.hiddenAt (val_main_v21 (F := Ideal) x0 x1) x0 (val_main_v22 (F := Ideal) x2) (val_main_v27 (F := Ideal) x4) (fun q => x3 (ix1 q)) n j := by
  rw [val_main_v30_apply, val_main_v29_apply, val_main_v26_apply, val_main_v23_apply, val_main_v25_apply, val_main_v24_apply,
    val_main_v28_apply, val_main_call0_v0_apply, val_main_call0_cst_apply]
  simp only [lidx23, ridx23, lidx28, ridx28, idx25, idx24, Ideal.maximumf_def, Ideal.addf_def, Ideal.ofBits_def, Ideal.ofBits_zero_f32]
  exact Cert.Sage.hiddenAt'_eq (val_main_v21 (F := Ideal) x0 x1) x0 (val_main_v22 (F := Ideal) x2) (val_main_v27 (F := Ideal) x4) (fun q => x3 (ix1 q)) n j

theorem lidx50 (n : Fin 100000) (j k : Fin 128) : lidx_main_v50 (ix2 n j) k = ix2 n k :=
  funext fun a => Fin.ext (by match a with | ⟨0, _⟩ => rfl | ⟨1, _⟩ => rfl)
theorem ridx50 (n : Fin 100000) (j k : Fin 128) : ridx_main_v50 (ix2 n j) k = ix2 k j :=
  funext fun a => Fin.ext (by match a with | ⟨0, _⟩ => rfl | ⟨1, _⟩ => rfl)
theorem lidx55 (n : Fin 100000) (j k : Fin 128) : lidx_main_v55 (ix2 n j) k = ix2 n k :=
  funext fun a => Fin.ext (by match a with | ⟨0, _⟩ => rfl | ⟨1, _⟩ => rfl)
theorem ridx55 (n : Fin 100000) (j k : Fin 128) : ridx_main_v55 (ix2 n j) k = ix2 k j :=
  funext fun a => Fin.ext (by match a with | ⟨0, _⟩ => rfl | ⟨1, _⟩ => rfl)
theorem idx52 (n : Fin 100000) (j : Fin 128) : idx_main_v52 (ix2 n j) = ix2 (0 : Fin 1) j :=
  funext fun a => Fin.ext (by match a with | ⟨0, _⟩ => rfl | ⟨1, _⟩ => rfl)
theorem idx51 (j : Fin 128) : idx_main_v51 (ix2 (0 : Fin 1) j) = ix1 j :=
  funext fun a => Fin.ext (by match a with | ⟨0, _⟩ => rfl)
theorem lidx59 (n : Fin 100000) (o : Fin 2) (k : Fin 128) : lidx_main_v59 (ix2 n o) k = ix2 n k :=
  funext fun a => Fin.ext (by match a with | ⟨0, _⟩ => rfl | ⟨1, _⟩ => rfl)
theorem ridx59 (n : Fin 100000) (o : Fin 2) (k : Fin 128) : ridx_main_v59 (ix2 n o) k = ix2 k o :=
  funext fun a => Fin.ext (by match a with | ⟨0, _⟩ => rfl | ⟨1, _⟩ => rfl)
theorem idx61 (n : Fin 100000) (o : Fin 2) : idx_main_v61 (ix2 n o) = ix2 (0 : Fin 1) o :=
  funext fun a => Fin.ext (by match a with | ⟨0, _⟩ => rfl | ⟨1, _⟩ => rfl)
theorem idx60 (o : Fin 2) : idx_main_v60 (ix2 (0 : Fin 1) o) = ix1 o :=
  funext fun a => Fin.ext (by match a with | ⟨0, _⟩ => rfl)

theorem hidden1_at (x0 : S100000x128.Idx → EReal) (x1 : IVec S2x1600000 32) (x2 : S128x128.Idx → EReal) (x3 : S128.Idx → EReal) (x4 x5 : S128x128.Idx → EReal)
    (x6 : S128.Idx → EReal) (x7 : S128x128.Idx → EReal) (n : Fin 100000) (k : Fin 128) :
    val_main_v57 (F := Ideal) x0 x1 x2 x3 x4 x5 x6 x7 (ix2 n k)
      = Cert.Sage.hiddenAt (val_main_v48 (F := Ideal) x0 x1 x2 x3 x4) (val_main_v30 (F := Ideal) x0 x1 x2 x3 x4)
            (val_main_v49 (F := Ideal) x5) (val_main_v54 (F := Ideal) x7) (fun q => x6 (ix1 q)) n k := by
  rw [val_main_v57_apply, val_main_v56_apply, val_main_v53_apply, val_main_v50_apply, val_main_v52_apply, val_main_v51_apply,
    val_main_v55_apply, val_main_call1_v0_apply, val_main_call1_cst_apply]
  simp only [lidx50, ridx50, lidx55, ridx55, idx52, idx51, Ideal.maximumf_def, Ideal.addf_def, Ideal.ofBits_def, Ideal.ofBits_zero_f32]
  exact Cert.Sage.hiddenAt'_eq (val_main_v48 (F := Ideal) x0 x1 x2 x3 x4) (val_main_v30 (F := Ideal) x0 x1 x2 x3 x4)
    (val_main_v49 (F := Ideal) x5) (val_main_v54 (F := Ideal) x7) (fun q => x6 (ix1 q)) n k

theorem out_at (x0 : S100000x128.Idx → EReal) (x1 : IVec S2x1600000 32) (x2 : S128x128.Idx → EReal) (x3 : S128.Idx → EReal) (x4 x5 : S128x128.Idx → EReal)
    (x6 : S128.Idx → EReal) (x7 : S128x128.Idx → EReal) (x8 : S2x128.Idx → EReal) (x9 : S2.Idx → EReal) (n : Fin 100000) (o : Fin 2) :
    val_main_v62 (F := Ideal) x0 x1 x2 x3 x4 x5 x6 x7 x8 x9 (ix2 n o)
      = Cert.Sage.headAt (fun k => Cert.Sage.hiddenAt (val_main_v48 (F := Ideal) x0 x1 x2 x3 x4) (val_main_v30 (F := Ideal) x0 x1 x2 x3 x4)
            (val_main_v49 (F := Ideal) x5) (val_main_v54 (F := Ideal) x7) (fun q => x6 (ix1 q)) n k)
          (val_main_v58 (F := Ideal) x8) (fun q => x9 (ix1 q)) o := by
  rw [val_main_v62_apply, val_main_v59_apply, val_main_v61_apply, val_main_v60_apply]
  simp only [lidx59, ridx59, idx61, idx60, Ideal.addf_def]
  unfold Cert.Sage.headAt
  refine congrArg (· + x9 (ix1 o)) (Finset.sum_congr rfl fun k _ => ?_)
  rw [hidden1_at]

end Cert.ReferenceIdeal.RefValue

end
-- ==== Proof.LibScatterCount.lean ====
/-
  The accumulating scatter that counts, for every node, the edges arriving at it, read over the extended reals.

  Two programs count the same thing in two layouts.  One adds a vector of E update entries into a vector of N
  entries; the other adds a column of E update entries (an E x 1 array) into a column of N entries (an N x 1 array).
  Both read the destination of update e from the same E x 1 table of signed integers, and an update whose destination
  is below 0 or not below N is dropped.  This file shows that update e lands, in either layout, exactly at the node
  whose number is the table's entry (e, 0), and concludes that the two results agree entry by entry whenever the two
  operands do and the two update arrays do:  result_column (n, 0) = result_vector (n).
-/
import Idealize.ShloMosaic.Lib.ValueIdx
import Idealize.ShloMosaic.PureOps.Ideal

noncomputable section

open scoped BigOperators

namespace Cert.Lib.ScatterCount

open Idealize.ShloMosaic Idealize.ShloMosaic.ValueIdx

/-- The vector form's dimension numbers. -/
def vecDims : ScatterDims ⟨1, ![100000]⟩ ⟨2, ![1600000, 1]⟩ ⟨1, ![1600000]⟩ where
  updateWindowDims := []
  insertedWindowDims := [0]
  scatterDimsToOperandDims := [0]
  indexVectorDim := 1

/-- The column form's dimension numbers. -/
def colDims : ScatterDims ⟨2, ![100000, 1]⟩ ⟨2, ![1600000, 1]⟩ ⟨2, ![1600000, 1]⟩ where
  updateWindowDims := [1]
  insertedWindowDims := [0]
  scatterDimsToOperandDims := [0]
  indexVectorDim := 1

/-- An update lands at the operand index i exactly when, on every operand axis, its window's start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · intro hi a
      rw [← hi]
      have := (h a).1
      simp only [Int.toNat_of_nonneg this]
    · intro H
      funext a
      refine Fin.ext ?_
      simp only [H a, Int.toNat_natCast]
  · constructor
    · intro hn
      cases hn
    · intro H
      exfalso
      refine h fun a => ?_
      rw [H a]
      have := (i a).isLt
      omega

/-- In the vector form, update e reads its start on the one operand axis from the table's entry (e, 0). -/
theorem vec_start (e : Fin 1600000) (idx : IVec ⟨2, ![1600000, 1]⟩ 32) (a : Fin 1) :
    vecDims.start (ix1 e) idx a = (idx (ix2 e (0 : Fin 1))).toInt := by
  obtain rfl : a = 0 := Subsingleton.elim _ _
  unfold ScatterDims.start
  rw [dif_pos (show (0 : Fin 1) ∈ vecDims.scatterDimsToOperandDims from List.mem_singleton.mpr rfl)]
  have hsi : vecDims.siIdx (ix1 e) ⟨List.idxOf (0 : Fin 1) vecDims.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- In the vector form the one operand axis is inserted: the window coordinate is 0. -/
theorem vec_window (e : Fin 1600000) (a : Fin 1) : vecDims.window (ix1 e) a = 0 := by
  obtain rfl : a = 0 := Subsingleton.elim _ _
  rfl

/-- In the column form, update (e, z) reads its start on the node axis from the table's entry (e, 0). -/
theorem col_start0 (e : Fin 1600000) (z : Fin 1) (idx : IVec ⟨2, ![1600000, 1]⟩ 32) :
    colDims.start (ix2 e z) idx (0 : Fin 2) = (idx (ix2 e (0 : Fin 1))).toInt := by
  unfold ScatterDims.start
  rw [dif_pos (show (0 : Fin 2) ∈ colDims.scatterDimsToOperandDims from List.mem_singleton.mpr rfl)]
  have hsi : colDims.siIdx (ix2 e z) ⟨List.idxOf (0 : Fin 2) colDims.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- In the column form the unit axis is named by no index component: its start is 0. -/
theorem col_start1 (e : Fin 1600000) (z : Fin 1) (idx : IVec ⟨2, ![1600000, 1]⟩ 32) :
    colDims.start (ix2 e z) idx (1 : Fin 2) = 0 := by
  unfold ScatterDims.start
  rw [dif_neg (show (1 : Fin 2) ∉ colDims.scatterDimsToOperandDims by decide)]

/-- In the column form the node axis is inserted: the window coordinate is 0. -/
theorem col_window0 (e : Fin 1600000) (z : Fin 1) : colDims.window (ix2 e z) (0 : Fin 2) = 0 := rfl

/-- In the column form the unit axis carries the update's second coordinate. -/
theorem col_window1 (e : Fin 1600000) (z : Fin 1) : colDims.window (ix2 e z) (1 : Fin 2) = z.val := rfl

/-- In the vector form, update e lands at node n exactly when the table's entry (e, 0) is n. -/
theorem vec_lands_iff (e : Fin 1600000) (idx : IVec ⟨2, ![1600000, 1]⟩ 32) (n : Fin 100000) :
    vecDims.resultIdx? (ix1 e) idx = some (ix1 n) ↔ (idx (ix2 e (0 : Fin 1))).toInt = (n.val : Int) := by
  rw [resultIdx?_eq_some_iff]
  constructor
  · intro H
    have := H (0 : Fin 1)
    rw [vec_start, vec_window] at this
    simpa using this
  · intro H a
    obtain rfl : a = 0 := Subsingleton.elim _ _
    rw [vec_start, vec_window, H]
    simp

/-- In the column form, update (e, z) lands at (n, z') exactly when the table's entry (e, 0) is n. -/
theorem col_lands_iff (e : Fin 1600000) (z : Fin 1) (idx : IVec ⟨2, ![1600000, 1]⟩ 32) (n : Fin 100000) (z' : Fin 1) :
    colDims.resultIdx? (ix2 e z) idx = some (ix2 n z') ↔ (idx (ix2 e (0 : Fin 1))).toInt = (n.val : Int) := by
  rw [resultIdx?_eq_some_iff]
  constructor
  · intro H
    have := H (0 : Fin 2)
    rw [col_start0, col_window0] at this
    simpa using this
  · intro H a
    match a with
    | ⟨0, _⟩ =>
      show colDims.start (ix2 e z) idx (0 : Fin 2) + (colDims.window (ix2 e z) (0 : Fin 2) : Int) = (n.val : Int)
      rw [col_start0, col_window0, H]
      simp
    | ⟨1, _⟩ =>
      show colDims.start (ix2 e z) idx (1 : Fin 2) + (colDims.window (ix2 e z) (1 : Fin 2) : Int) = (z'.val : Int)
      rw [col_start1, col_window1, Fin.val_eq_zero z, Fin.val_eq_zero z']
      simp

/-- A vector's index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a vector's index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE TWO COUNTS AGREE: with the two operands equal entry by entry and the two update arrays equal entry by entry,
    the column form's result at (n, 0) is the vector form's result at n. -/
theorem scatterAdd_col_eq_vec
    (dV : ScatterDims ⟨1, ![100000]⟩ ⟨2, ![1600000, 1]⟩ ⟨1, ![1600000]⟩) (hV : dV = vecDims)
    (dC : ScatterDims ⟨2, ![100000, 1]⟩ ⟨2, ![1600000, 1]⟩ ⟨2, ![1600000, 1]⟩) (hC : dC = colDims)
    (idx : IVec ⟨2, ![1600000, 1]⟩ 32)
    (xV : (⟨1, ![100000]⟩ : Shape).Idx → EReal) (xC : (⟨2, ![100000, 1]⟩ : Shape).Idx → EReal)
    (uV : (⟨1, ![1600000]⟩ : Shape).Idx → EReal) (uC : (⟨2, ![1600000, 1]⟩ : Shape).Idx → EReal)
    (hx : ∀ (n : Fin 100000) (z : Fin 1), xC (ix2 n z) = xV (ix1 n))
    (hu : ∀ (e : Fin 1600000) (z : Fin 1), uC (ix2 e z) = uV (ix1 e))
    (n : Fin 100000) (z : Fin 1) :
    Host.scatterAdd (F := Ideal) (φ := .f32) dC xC idx uC (ix2 n z)
      = Host.scatterAdd (F := Ideal) (φ := .f32) dV xV idx uV (ix1 n) := by
  subst hV hC
  show xC (ix2 n z) + ∑ j ∈ Finset.univ.filter (fun j => colDims.resultIdx? j idx = some (ix2 n z)), uC j
    = xV (ix1 n) + ∑ j ∈ Finset.univ.filter (fun j => vecDims.resultIdx? j idx = some (ix1 n)), uV j
  rw [hx, Finset.sum_filter, Finset.sum_filter, sum_idx2, sum_idx1]
  refine congrArg (xV (ix1 n) + ·) ?_
  refine Finset.sum_congr rfl fun e _ => ?_
  rw [Fintype.sum_unique]
  show (if colDims.resultIdx? (ix2 e (default : Fin 1)) idx = some (ix2 n z) then uC (ix2 e (default : Fin 1)) else 0)
    = (if vecDims.resultIdx? (ix1 e) idx = some (ix1 n) then uV (ix1 e) else 0)
  rw [hu]
  by_cases H : (idx (ix2 e (0 : Fin 1))).toInt = (n.val : Int)
  · rw [if_pos ((col_lands_iff e _ idx n z).2 H), if_pos ((vec_lands_iff e idx n).2 H)]
  · rw [if_neg (fun h => H ((col_lands_iff e _ idx n z).1 h)), if_neg (fun h => H ((vec_lands_iff e idx n).1 h))]

end Cert.Lib.ScatterCount

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.KernelValue.lean ====
/-
  The idealized kernel program's result array is the reference's result, as one function of the argument arrays.

  Three facts join the two programs.  (1) The number of edges arriving at a node, which the kernel program counts
  into a vector over the nodes and recasts as a column, and the reference counts straight into a column, is the same
  number: both add one for every edge whose destination index is that node, and the trailing unit axis changes
  nothing.  Hence the two programs' neighbour means are one function of the edge list and of a feature array.
  (2) Each kernel's result array is, entry by entry, the layer of the arrays it finds at its entry; the first
  kernel's are the host's mean of the input features, the features, the transposed weights and the bias row, so its
  result is the reference's first hidden layer, and the second stretch of host operations then hands the second
  kernel the reference's second mean.  (3) The reference's stages read at an entry are the same layer, with the
  bias added before the second inner product, which addition does not see.
-/
import proofs.«107102_j34402688041309_1_alg».proof.Proof.HostStretch
import proofs.«107102_j34402688041309_1_alg».proof.Proof.Region0Value
import proofs.«107102_j34402688041309_1_alg».proof.Proof.Region1Value
import proofs.«107102_j34402688041309_1_alg».proof.Proof.RefValue
import proofs.«107102_j34402688041309_1_alg».proof.Proof.LibScatterCount
import proofs.«107102_j34402688041309_1_alg».proof.Proof.LibColumnLayout
import Idealize.ShloMosaic.Lib.ValueLayout

set_option maxRecDepth 16384

noncomputable section

open scoped BigOperators

namespace Cert.KernelIdeal.KernelValue

open Cert.KernelIdeal Cert.KernelIdeal.Gen Cert.KernelIdeal.HostValue
open Idealize.ShloMosaic Idealize.ShloMosaic.TcCoe Idealize.SL.Sem Idealize.ShloMosaic.ValueIdx
open Cert.ReferenceIdeal.Read

/-! ## The two counts are one -/

/-- The two programs' dimension numbers for the count are the vector form's and the column form's. -/
theorem count_dims_vec : scatter_S100000_S1600000x1_S1600000_n_0_0_1 = Cert.Lib.ScatterCount.vecDims := rfl
theorem count_dims_col : Cert.ReferenceIdeal.scatter_S100000x1_S1600000x1_S1600000x1_1_0_0_1 = Cert.Lib.ScatterCount.colDims := rfl

/-- Both programs scatter at the same indices: the edges' destinations. -/
theorem count_indices (x1 : IVec S2x1600000 32) : val_main_v16 (F := Ideal) x1 = dstIdx x1 := rfl

/-- Both start from zeros, -/
theorem count_zeros (n : Fin 100000) (z : Fin 1) : val_main_v15 (F := Ideal) (ix2 n z)
    = (broadcastInDim S100000 ![] bcast_S_S100000 (constant (F := Ideal) S_ .f32 0x00000000#32)) (ix1 n) := rfl

/-- and add a one per edge. -/
theorem count_ones (e : Fin 1600000) (z : Fin 1) : val_main_v14 (F := Ideal) (ix2 e z)
    = (broadcastInDim S1600000 ![] bcast_S_S1600000 (constant (F := Ideal) S_ .f32 0x3F800000#32)) (ix1 e) := rfl

/-- The reference's column of counts, read at a node, is the kernel program's vector of counts there. -/
theorem count_at (x1 : IVec S2x1600000 32) (n : Fin 100000) (z : Fin 1) : val_main_v17 (F := Ideal) x1 (ix2 n z)
      = Host.scatterAdd (F := Ideal) (φ := .f32) scatter_S100000_S1600000x1_S1600000_n_0_0_1
          (broadcastInDim S100000 ![] bcast_S_S100000 (constant (F := Ideal) S_ .f32 0x00000000#32)) (dstIdx x1)
          (broadcastInDim S1600000 ![] bcast_S_S1600000 (constant (F := Ideal) S_ .f32 0x3F800000#32)) (ix1 n) := by
  unfold val_main_v17
  rw [count_indices]
  exact Cert.Lib.ScatterCount.scatterAdd_col_eq_vec scatter_S100000_S1600000x1_S1600000_n_0_0_1 count_dims_vec
    Cert.ReferenceIdeal.scatter_S100000x1_S1600000x1_S1600000x1_1_0_0_1 count_dims_col (dstIdx x1)
    (broadcastInDim S100000 ![] bcast_S_S100000 (constant (F := Ideal) S_ .f32 0x00000000#32)) (val_main_v15 (F := Ideal))
    (broadcastInDim S1600000 ![] bcast_S_S1600000 (constant (F := Ideal) S_ .f32 0x3F800000#32)) (val_main_v14 (F := Ideal))
    count_zeros count_ones n z

/-- The count of arriving edges, at least one: the vector form recast as a column is the column form. -/
theorem countCol_eq (x1 : IVec S2x1600000 32) : countCol x1 = val_main_v19 (F := Ideal) x1 := by
  funext i
  obtain ⟨n, z, rfl⟩ : ∃ (n : Fin 100000) (z : Fin 1), i = ix2 n z := ⟨i 0, i 1, eq_ix2 i⟩
  unfold countCol
  rw [PhysLoss.shapeCast_a_a1_apply, maximumf_apply, val_main_v19_apply, count_at, Ideal.maximumf_def]
  rfl

set_option maxHeartbeats 400000 in
/-- The reference's first neighbour mean is the host's mean of the input features. -/
theorem mean_ref0 (x0 : S100000x128.Idx → EReal) (x1 : IVec S2x1600000 32) :
    val_main_v21 (F := Ideal) x0 x1 = meanWith x1 (countCol x1) x0 := by
  rw [countCol_eq]; rfl

set_option maxHeartbeats 400000 in
/-- The reference's second neighbour mean is the host's mean of the reference's first hidden layer. -/
theorem mean_ref1 (x0 : S100000x128.Idx → EReal) (x1 : IVec S2x1600000 32) (x2 : S128x128.Idx → EReal)
    (x3 : S128.Idx → EReal) (x4 : S128x128.Idx → EReal) :
    val_main_v48 (F := Ideal) x0 x1 x2 x3 x4 = meanWith x1 (countCol x1) (val_main_v30 (F := Ideal) x0 x1 x2 x3 x4) := by
  rw [countCol_eq]; rfl

variable (m : (ℓ : Loc nD τ sig) → Buf (Elt Ideal) ℓ) (ρ : Dev nD → PrngReg) (c : Dev nD)

/-! ## The first kernel's result is the reference's first hidden layer -/

set_option maxHeartbeats 1000000 in
theorem hidden0_eq : W2 m ρ c (Proc.devRef .tc main_v26)
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [mid_hidden]
  funext (i : S100000x128.Idx)
  obtain ⟨n, j, rfl⟩ : ∃ (n : Fin 100000) (j : Fin 128), i = ix2 n j := ⟨i 0, i 1, eq_ix2 i⟩
  rw [Cert.KernelIdeal.Region0Value.region0_at (V1 m ρ) c n j, Cert.ReferenceIdeal.RefValue.hidden0_at,
    entry0_mean, entry0_self, entry0_wl, entry0_wr, entry0_bias, mean_ref0]
  have hb : (fun q : Fin 128 => shapeCast S1x128 (m ((c : Thread nD τ).loc main_arg3)) shapeCasts_S128_S1x128 (ix2 (0 : Fin 1) q))
      = fun q => (m ((c : Thread nD τ).loc main_arg3)) (ix1 q) := funext fun q => shapeCast_a_1a_apply _ _ 0 q
  rw [hb]
  rfl

/-! ## The second kernel's result is the reference's result -/

set_option maxHeartbeats 1000000 in
theorem kernel_out : W4 m ρ c (Proc.devRef .tc main_v44)
    = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W4 m ρ c (Proc.devRef .tc main_v44) = (dat1 (V3 m ρ) c).arrAt 7 cfg1.N from W4_arr m ρ c 7]
  funext (i : S100000x2.Idx)
  obtain ⟨n, o, rfl⟩ : ∃ (n : Fin 100000) (o : Fin 2), i = ix2 n o := ⟨i 0, i 1, eq_ix2 i⟩
  rw [Cert.KernelIdeal.Region1Value.region1_at (V3 m ρ) c n o, Cert.ReferenceIdeal.RefValue.out_at,
    entry1_mean, entry1_self, entry1_wl, entry1_wr, entry1_bias, entry1_head, entry1_headBias, hidden0_eq, mean_ref1]
  have hb : (fun q : Fin 128 => shapeCast S1x128 (m ((c : Thread nD τ).loc main_arg6)) shapeCasts_S128_S1x128 (ix2 (0 : Fin 1) q))
      = fun q => (m ((c : Thread nD τ).loc main_arg6)) (ix1 q) := funext fun q => shapeCast_a_1a_apply _ _ 0 q
  have hf : (fun q : Fin 2 => shapeCast S1x2 (m ((c : Thread nD τ).loc main_arg9)) shapeCasts_S2_S1x2 (ix2 (0 : Fin 1) q))
      = fun q => (m ((c : Thread nD τ).loc main_arg9)) (ix1 q) := funext fun q => shapeCast_a_1a_apply _ _ 0 q
  rw [hb, hf]
  rfl

end Cert.KernelIdeal.KernelValue

end
-- ==== Proof.lean ====
/-
  Two programs for a two-layer GraphSAGE network with a linear head on a graph of 100000 nodes and 1600000 edges
  compute the same array over the extended reals.

  Both take, for every node, the mean of its in-neighbours' feature rows (the rows gathered along the edges,
  summed at the edges' destinations, divided by the number of arriving edges, at least one) and return
  max(mean·Wl^T + own·Wr^T + b, 0); they do it twice and finish with a 128 x 2 linear head.  The kernel program runs
  each layer as a kernel over 25 blocks of 4000 nodes, its matrix products on operands rounded to a shorter format,
  which over the extended reals is no change; the reference is one line of array operations.  The two differ in how
  they count the arriving edges (a vector recast as a column, against a column), in the order of a layer's three
  summands, and in the tiling; none of these is seen by exact arithmetic, and no law used here needs a finite input.

  The frames of the two kernel programs are the generated frame certificates; the reference's frame is its generated
  run with the result dropped.  The idealization rewrote nothing, so `preserves` has nothing to state.  For the
  value claim the kernel program's run names its result array (Proof/KernelRun.lean), that array is the reference's
  result as a function of the arguments (Proof/KernelValue.lean), and the reference's generated run ends at that
  function of arguments that agree.
-/
import proofs.«107102_j34402688041309_1_alg».proof.Defs
import proofs.«107102_j34402688041309_1_alg».proof.Proof.Gen.Kernel
import proofs.«107102_j34402688041309_1_alg».proof.Proof.Gen.Kernel.Skeleton
import proofs.«107102_j34402688041309_1_alg».proof.Proof.Gen.Kernel.Launch
import proofs.«107102_j34402688041309_1_alg».proof.Proof.Gen.Kernel.Points
import proofs.«107102_j34402688041309_1_alg».proof.Proof.Gen.Kernel.Frame
import proofs.«107102_j34402688041309_1_alg».proof.Proof.Gen.KernelIdeal
import proofs.«107102_j34402688041309_1_alg».proof.Proof.Gen.KernelIdeal.Skeleton
import proofs.«107102_j34402688041309_1_alg».proof.Proof.Gen.KernelIdeal.Launch
import proofs.«107102_j34402688041309_1_alg».proof.Proof.Gen.KernelIdeal.Points
import proofs.«107102_j34402688041309_1_alg».proof.Proof.Gen.KernelIdeal.Frame
import proofs.«107102_j34402688041309_1_alg».proof.Proof.Gen.ReferenceIdeal
import proofs.«107102_j34402688041309_1_alg».proof.Proof.Gen.Pre_finite_inputs
import proofs.«107102_j34402688041309_1_alg».proof.Proof.Gen.ReferenceIdeal.Run
import proofs.«107102_j34402688041309_1_alg».proof.Proof.Gen.ReferenceIdeal.Read
import proofs.«107102_j34402688041309_1_alg».proof.Proof.KernelRun
import proofs.«107102_j34402688041309_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end, with the kernel program's result array and the reference's at one function of arguments that
    agree. -/
theorem algebraic : Cert.algebraic_KernelIdeal_ReferenceIdeal := by
  intro m ρ m' ρ' _ hagree
  refine ⟨fun c => Cert.KernelIdeal.Gen.W4 m ρ c (Proc.devRef .tc Cert.KernelIdeal.main_v44),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v62_eq, e0, e1, e2, e3, e4, e5, e6, e7, e8, e9]
  exact (Cert.KernelIdeal.KernelValue.kernel_out m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
